-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x56x56 : Shape := ⟨5, ![8, 4, 512, 56, 56]⟩
abbrev S_ : Shape := ⟨0, ![]⟩

class Facts : Prop where
  bcast_S_S8x4x512x56x56 : S_.BroadcastsInDim S8x4x512x56x56 (![] : Fin 0 → Fin S8x4x512x56x56.rank)
  reducesTo_S8x4x512x56x56_S_d0_1_2_3_4 : S8x4x512x56x56.ReducesTo [0, 1, 2, 3, 4] S_
  h_S_ : 0 < S_.numel

variable [Facts]

def fn {F : FTy → Type} [FloatOps F] (main_arg0 : FVec F S8x4x512x56x56 .f32) : IVec S_ 1 :=
  let main_v0 : FVec F S8x4x512x56x56 .f32 := Host.absf main_arg0
  let main_cst : FVec F S_ .f32 := constant S_ .f32 0x7F800000#32
  let main_v1 : FVec F S8x4x512x56x56 .f32 := broadcastInDim S8x4x512x56x56 ![] bcast_S_S8x4x512x56x56 main_cst
  let main_v2 : IVec S8x4x512x56x56 1 := cmpf .olt main_v0 main_v1
  let main_c : IVec S_ 1 := constantI S_ 1 1#1
  let main_v3 : IVec S_ 1 := (fun x v => Host.reduce IntOp.andi x v reducesTo_S8x4x512x56x56_S_d0_1_2_3_4 h_S_) main_v2 main_c
  main_v3
-- ==== Kernel.lean ====
abbrev S8x4x512x56x56 : Shape := ⟨5, ![8, 4, 512, 56, 56]⟩
abbrev S4x56x56 : Shape := ⟨3, ![4, 56, 56]⟩
abbrev S8x1x512x8x56 : Shape := ⟨5, ![8, 1, 512, 8, 56]⟩
abbrev S1x8x56 : Shape := ⟨3, ![1, 8, 56]⟩
abbrev S512x8x56 : Shape := ⟨3, ![512, 8, 56]⟩
abbrev S8x56 : Shape := ⟨2, ![8, 56]⟩
abbrev S1x1x512x8x56 : Shape := ⟨5, ![1, 1, 512, 8, 56]⟩

abbrev nBuf : Space → Nat
  | .hbm => 2
  | .vmem => 4
  | .smem => 0
  | _ => 0

abbrev bufTy : (tb : Table) → Fin (tcTables nBuf tb) → BufTy
  | .hbm, ⟨0, _⟩ => ⟨S8x4x512x56x56, .f32⟩
  | .hbm, ⟨1, _⟩ => ⟨S4x56x56, .f32⟩
  | .local _ .vmem, ⟨0, _⟩ => ⟨S8x1x512x8x56, .f32⟩
  | .local _ .vmem, ⟨1, _⟩ => ⟨S8x1x512x8x56, .f32⟩
  | .local _ .vmem, ⟨2, _⟩ => ⟨S1x8x56, .f32⟩
  | .local _ .vmem, ⟨3, _⟩ => ⟨S1x8x56, .f32⟩
  | _, _ => ⟨S8x4x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 7], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x512x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x1x512x8x56_S1x1x512x8x56_0_0_0_0_0 : ∀ a, (![0, 0, 0, 0, 0] : Fin 5 → Nat) a + S1x1x512x8x56.size a ≤ S8x1x512x8x56.size a
  h_S1x1x512x8x56 : 0 < S1x1x512x8x56.numel
  shapeCasts_S1x1x512x8x56_S512x8x56 : S1x1x512x8x56.ShapeCasts S512x8x56
  reduces_S512x8x56_S8x56 : S512x8x56.Reduces [0] S8x56
  shapeCasts_S8x56_S1x8x56 : S8x56.ShapeCasts S1x8x56
  broadcasts_S1x8x56_S512x8x56 : S1x8x56.Broadcasts S512x8x56
  inb_S8x1x512x8x56_S1x1x512x8x56_1_0_0_0_0 : ∀ a, (![1, 0, 0, 0, 0] : Fin 5 → Nat) a + S1x1x512x8x56.size a ≤ S8x1x512x8x56.size a
  inb_S8x1x512x8x56_S1x1x512x8x56_2_0_0_0_0 : ∀ a, (![2, 0, 0, 0, 0] : Fin 5 → Nat) a + S1x1x512x8x56.size a ≤ S8x1x512x8x56.size a
  inb_S8x1x512x8x56_S1x1x512x8x56_3_0_0_0_0 : ∀ a, (![3, 0, 0, 0, 0] : Fin 5 → Nat) a + S1x1x512x8x56.size a ≤ S8x1x512x8x56.size a
  inb_S8x1x512x8x56_S1x1x512x8x56_4_0_0_0_0 : ∀ a, (![4, 0, 0, 0, 0] : Fin 5 → Nat) a + S1x1x512x8x56.size a ≤ S8x1x512x8x56.size a
  inb_S8x1x512x8x56_S1x1x512x8x56_5_0_0_0_0 : ∀ a, (![5, 0, 0, 0, 0] : Fin 5 → Nat) a + S1x1x512x8x56.size a ≤ S8x1x512x8x56.size a
  inb_S8x1x512x8x56_S1x1x512x8x56_6_0_0_0_0 : ∀ a, (![6, 0, 0, 0, 0] : Fin 5 → Nat) a + S1x1x512x8x56.size a ≤ S8x1x512x8x56.size a
  inb_S8x1x512x8x56_S1x1x512x8x56_7_0_0_0_0 : ∀ a, (![7, 0, 0, 0, 0] : Fin 5 → Nat) a + S1x1x512x8x56.size a ≤ S8x1x512x8x56.size a
  inb_S1x8x56_S1x8x56_0_0_0 : ∀ a, (![0, 0, 0] : Fin 3 → Nat) a + S1x8x56.size a ≤ S1x8x56.size a
  h_S1x8x56 : 0 < S1x8x56.numel
  shapeCasts_S1x8x56_S8x56 : S1x8x56.ShapeCasts S8x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x512x8x56.size a ≤ S8x4x512x56x56.size a
  hwx0_0 : ∀ i : grid0.Coords, EltTy.bits .f32 = 32 ∨ (Rect.block (s := S8x4x512x56x56) S8x1x512x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x56.size a ≤ S4x56x56.size a
  hwx0_1 : ∀ i : grid0.Coords, EltTy.bits .f32 = 32 ∨ (Rect.block (s := S4x56x56) S1x8x56.size (cc0_transform_1 i) (hinb0_1 i)).WholeWords (EltTy.packing .f32)

variable [Facts₀]

abbrev win0_0 : Pipeline.Window sig grid0 :=
  Pipeline.Window.ofSpec (Memref.whole main_arg0) S8x1x512x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4x512x56x56 : Shape := ⟨5, ![8, 4, 512, 56, 56]⟩
abbrev S_ : Shape := ⟨0, ![]⟩
abbrev S8x4x56x56 : Shape := ⟨4, ![8, 4, 56, 56]⟩
abbrev S8x4x1x56x56 : Shape := ⟨5, ![8, 4, 1, 56, 56]⟩
abbrev S4x512x56x56 : Shape := ⟨4, ![4, 512, 56, 56]⟩
abbrev S4x56x56 : Shape := ⟨3, ![4, 56, 56]⟩

abbrev nBuf : Space → Nat
  | .hbm => 25
  | .vmem => 0
  | .smem => 0
  | _ => 0

abbrev bufTy : (tb : Table) → Fin (tcTables nBuf tb) → BufTy
  | .hbm, ⟨0, _⟩ => ⟨S8x4x512x56x56, .f32⟩
  | .hbm, ⟨1, _⟩ => ⟨S8x4x512x56x56, .f32⟩
  | .hbm, ⟨2, _⟩ => ⟨S_, .f32⟩
  | .hbm, ⟨3, _⟩ => ⟨S8x4x56x56, .f32⟩
  | .hbm, ⟨4, _⟩ => ⟨S8x4x1x56x56, .f32⟩
  | .hbm, ⟨5, _⟩ => ⟨S8x4x1x56x56, .f32⟩
  | .hbm, ⟨6, _⟩ => ⟨S_, .f32⟩
  | .hbm, ⟨7, _⟩ => ⟨S8x4x1x56x56, .f32⟩
  | .hbm, ⟨8, _⟩ => ⟨S8x4x1x56x56, .f32⟩
  | .hbm, ⟨9, _⟩ => ⟨S8x4x512x56x56, .f32⟩
  | .hbm, ⟨10, _⟩ => ⟨S8x4x512x56x56, .f32⟩
  | .hbm, ⟨11, _⟩ => ⟨S_, .f32⟩
  | .hbm, ⟨12, _⟩ => ⟨S4x512x56x56, .f32⟩
  | .hbm, ⟨13, _⟩ => ⟨S4x512x56x56, .f32⟩
  | .hbm, ⟨14, _⟩ => ⟨S_, .f32⟩
  | .hbm, ⟨15, _⟩ => ⟨S4x56x56, .f32⟩
  | .hbm, ⟨16, _⟩ => ⟨S8x4x512x56x56, .f32⟩
  | .hbm, ⟨17, _⟩ => ⟨S_, .f32⟩
  | .hbm, ⟨18, _⟩ => ⟨S8x4x56x56, .f32⟩
  | .hbm, ⟨19, _⟩ => ⟨S_, .f32⟩
  | .hbm, ⟨20, _⟩ => ⟨S4x56x56, .f32⟩
  | .hbm, ⟨21, _⟩ => ⟨S4x56x56, .f32⟩
  | .hbm, ⟨22, _⟩ => ⟨S_, .f32⟩
  | .hbm, ⟨23, _⟩ => ⟨S4x56x56, .f32⟩
  | .hbm, ⟨24, _⟩ => ⟨S4x56x56, .f32⟩
  | _, _ => ⟨S8x4x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8x4x512x56x56_S8x4x56x56_d2 : S8x4x512x56x56.ReducesTo [2] S8x4x56x56
  h_S_ : 0 < S_.numel
  bcast_S8x4x56x56_S8x4x1x56x56_0_1_3_4 : S8x4x56x56.BroadcastsInDim S8x4x1x56x56 (![0, 1, 3, 4] : Fin 4 → Fin S8x4x1x56x56.rank)
  bcast_S_S8x4x1x56x56 : S_.BroadcastsInDim S8x4x1x56x56 (![] : Fin 0 → Fin S8x4x1x56x56.rank)
  bcast_S8x4x1x56x56_S8x4x512x56x56_0_1_2_3_4 : S8x4x1x56x56.BroadcastsInDim S8x4x512x56x56 (![0, 1, 2, 3, 4] : Fin 5 → Fin S8x4x512x56x56.rank)
  reducesTo_S8x4x512x56x56_S4x512x56x56_d0 : S8x4x512x56x56.ReducesTo [0] S4x512x56x56
  reducesTo_S4x512x56x56_S4x56x56_d1 : S4x512x56x56.ReducesTo [1] S4x56x56
  reducesTo_S8x4x56x56_S4x56x56_d0 : S8x4x56x56.ReducesTo [0] S4x56x56
  bcast_S_S4x56x56 : S_.BroadcastsInDim S4x56x56 (![] : Fin 0 → Fin S4x56x56.rank)

variable [Facts₀]

class Facts : Prop extends Facts₀ where

variable [Facts]
-- ==== Proof.Cosine.lean ====
/-
  Mean pairwise cosine similarity of eight clips, one pixel at a time.

  At one pixel of one batch entry the input is a family `f n c` of extended reals: clip `n` (eight of them), channel `c`
  (512 of them). Each clip's channel vector is divided by its Euclidean length, the length floored at the f32 nearest
  1e-8 (`len`, `dir`). The sum over all ORDERED pairs of clips of the inner products of their directions is
  the squared length of the sum of the directions, `∑ c, (∑ n, dir n c)²`; taking away the eight diagonal terms
  `∑ n, ∑ c, (dir n c)²` leaves the pairs of DISTINCT clips, and dividing by their number, 8·7 = 56, gives the mean
  (`score`). Both programs of this certificate compute exactly this expression at every pixel; they differ only in how
  the two sums over the clips are bracketed (a running sum from zero against one sum), which in a commutative monoid is
  no difference (`sum_eight`). Nothing here needs the entries to be finite.
-/
import Idealize.ShloMosaic.Lib.ValueIdx

noncomputable section

open scoped BigOperators

namespace Cert.Cosine

open Idealize.ShloMosaic Idealize.ShloMosaic.ValueIdx

/-- The floor under a channel vector's length: the f32 nearest 1e-8, as the extended real its pattern denotes. -/
def tiny : EReal := Ideal.ofBits .f32 0x322BCC77#32

/-- The number of ordered pairs of distinct clips, 8·7 = 56 (the pattern of the f32 56.0). -/
def pairs : EReal := Ideal.ofBits .f32 0x42600000#32

/-- The Euclidean length of clip `n`'s channel vector, floored at `tiny`. -/
def len (f : Fin 8 → Fin 512 → EReal) (n : Fin 8) : EReal :=
  max (Ideal.sqrt (∑ c : Fin 512, f n c * f n c)) tiny

/-- Clip `n`'s channel vector divided by its floored length: its direction. -/
def dir (f : Fin 8 → Fin 512 → EReal) (n : Fin 8) (c : Fin 512) : EReal :=
  Ideal.div (f n c) (len f n)

/-- The mean, over the 56 ordered pairs of distinct clips, of the inner product of the two clips' directions: the squared
    length of the sum of the directions, less the eight squared lengths of the directions themselves, over 56. -/
def score (f : Fin 8 → Fin 512 → EReal) : EReal :=
  Ideal.div ((∑ c : Fin 512, (∑ n : Fin 8, dir f n c) * (∑ n : Fin 8, dir f n c))
      - ∑ n : Fin 8, ∑ c : Fin 512, dir f n c * dir f n c) pairs

/-- The family a `[8, 4, 512, 56, 56]` array holds over pixel `(h, w)` of batch entry `b`. -/
def fibre (X : (⟨5, ![8, 4, 512, 56, 56]⟩ : Shape).Idx → EReal) (b : Fin 4) (h w : Fin 56) : Fin 8 → Fin 512 → EReal :=
  fun n c => X (ix5 n b c h w)

/-- THE RESULT, as one function of the input array: at `(b, h, w)` the score of the family over that pixel. -/
def G (X : (⟨5, ![8, 4, 512, 56, 56]⟩ : Shape).Idx → EReal) : (⟨3, ![4, 56, 56]⟩ : Shape).Idx → EReal :=
  fun i => score (fibre X (i 0) (i 1) (i 2))

/-- A running sum of eight terms started from zero is their sum. -/
theorem sum_eight {M : Type*} [AddCommMonoid M] (a : Fin 8 → M) :
    0 + a 0 + a 1 + a 2 + a 3 + a 4 + a 5 + a 6 + a 7 = ∑ n : Fin 8, a n := by
  rw [zero_add, Fin.sum_univ_eight]

end Cert.Cosine

end
-- ==== Proof.LibLeadAxis.lean ====
/-
  A rank-3 array `[a, b, c]` handled along its LEADING axis, read by coordinates.

  * `multiReduction_add_lead_apply`: a kernel's sum over the leading axis (`jnp.sum(x, axis=0)` of an `[a, b, c]` value), at
    the ideal values, is at `(p, q)` the sum over `k` of the entries `(k, p, q)`.
  * `broadcastTo_1bc_abc_apply`: a `[1, b, c]` value broadcast along a new leading extent `a` (`v[None, :, :]` against an
    `[a, b, c]` operand) reads at `(k, p, q)` its one slice at `(p, q)`.
  * `ld_slab_apply`: of an `[N, 1, a, b, c]` buffer, the slab at leading position `n` — loaded through the unit-stride
    rectangle of sizes `[1, 1, a, b, c]` at offsets `[n, 0, 0, 0, 0]` and cast to `[a, b, c]` (`x_ref[n]` of a block whose
    second axis is squeezed) — reads at `(k, p, q)` the buffer at `(n, 0, k, p, q)`.
-/
import Idealize.ShloMosaic.Lib.Pipeline.Value
import Idealize.ShloMosaic.Lib.ValueLayout
import Idealize.ShloMosaic.PureOps.Ideal.Laws

noncomputable section

open scoped BigOperators

namespace Cert.LeadAxis

open Idealize.ShloMosaic Idealize.ShloMosaic.ValueIdx

/-- The sum over the leading axis of an `[a, b, c]` value, at `(p, q)`: the sum over `k` of the entries `(k, p, q)`. -/
theorem multiReduction_add_lead_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (p : Fin b) (q : Fin c) :
    multiReduction .add [0] ⟨2, ![b, c]⟩ src acc h hφ hacc (ix2 p q) = ∑ k : Fin a, src (ix3 k p q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

/-- A `[1, b, c]` value broadcast to `[a, b, c]` reads, at `(k, p, q)`, its one slice at `(p, q)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (k : Fin a) (p : Fin b) (q : Fin c) :
    broadcastTo ⟨3, ![a, b, c]⟩ v h (ix3 k p q) = v (ix3 (0 : Fin 1) p q) := by
  refine broadcastTo_apply v h (ix3 k p q) (ix3 (0 : Fin 1) p q) fun ax => ?_
  match ax with
  | ⟨0, _⟩ => rfl
  | ⟨1, _⟩ =>
    show p.val = if b = 1 then 0 else p.val
    split
    · have := p.isLt; omega
    · rfl
  | ⟨2, _⟩ =>
    show q.val = if c = 1 then 0 else q.val
    split
    · have := q.isLt; omega
    · rfl

/-- Slab `n` of an `[N, 1, a, b, c]` buffer, loaded through the rectangle at offsets `[n, 0, 0, 0, 0]` and cast to
    `[a, b, c]`, reads at `(k, p, q)` the buffer at `(n, 0, k, p, q)`. -/
theorem ld_slab_apply {α : Type} {N a b c : ℕ} (X : (⟨5, ![N, 1, a, b, c]⟩ : Shape).Idx → α) (n : ℕ) (hn : n < N)
    (inb : ∀ d, (![n, 0, 0, 0, 0] : Fin 5 → ℕ) d + (⟨5, ![1, 1, a, b, c]⟩ : Shape).size d ≤ (⟨5, ![N, 1, a, b, c]⟩ : Shape).size d)
    (h : (⟨5, ![1, 1, a, b, c]⟩ : Shape).ShapeCasts ⟨3, ![a, b, c]⟩) (k : Fin a) (p : Fin b) (q : Fin c) :
    shapeCast ⟨3, ![a, b, c]⟩
        (fun x => X ((Rect.unit (s := ⟨5, ![N, 1, a, b, c]⟩) ![n, 0, 0, 0, 0] (⟨5, ![1, 1, a, b, c]⟩ : Shape).size inb).idx x)) h (ix3 k p q)
      = X (ix5 (⟨n, hn⟩ : Fin N) (0 : Fin 1) k p q) := by
  refine (shapeCast_apply _ h (ix3 k p q) (ix5 (0 : Fin 1) (0 : Fin 1) k p q) ?_).trans ?_
  · rw [Shape.rowMajor_val_five, Shape.rowMajor_val_three]
    show (((0 * 1 + 0) * a + k.val) * b + p.val) * c + q.val = (k.val * b + p.val) * c + q.val
    simp only [Nat.zero_mul, Nat.zero_add]
  · refine congrArg X ?_
    funext d
    apply Fin.ext
    match d with
    | ⟨0, _⟩ => show n + 1 * 0 = n; omega
    | ⟨1, _⟩ => show 0 + 1 * 0 = 0; omega
    | ⟨2, _⟩ => show 0 + 1 * k.val = k.val; omega
    | ⟨3, _⟩ => show 0 + 1 * p.val = p.val; omega
    | ⟨4, _⟩ => show 0 + 1 * q.val = q.val; omega

end Cert.LeadAxis

end
-- ==== Proof.Tile.lean ====
/-
  What the kernel body leaves in its output block, at the ideal values.

  The block of the input at a grid point is an `[8, 1, 512, 8, 56]` array `x0`: eight clips, one batch entry, 512 channels,
  an `8 × 56` tile of pixels. The body takes the eight `[512, 8, 56]` slabs one after the other (`slab`); divides each by its
  floored length along the channel axis (`unitize`: squares summed over the leading axis, square root, `max · tiny`, the
  `[8, 56]` lengths broadcast back along the channels, the quotient) — the clip's direction at every pixel of the tile
  (`clipDir`) —; keeps the running sum of the directions from zero (`total`) and the running sum, from zero, of the
  directions' squared lengths (`diag`); and stores `(‖total‖² − diag) / 56` (`tile`). `out_eq` says the generated name for the
  stored block IS this term (the payloads unfold to it); `tile_apply` reads it at a pixel `(p, q)` of the tile:
  the score `Cosine.score` of the family the block holds over that pixel.
-/
import proofs.«178114_j15642270892813_2_alg».proof.Proof.Gen.KernelIdeal.Frame
import proofs.«178114_j15642270892813_2_alg».proof.Proof.Cosine
import proofs.«178114_j15642270892813_2_alg».proof.Proof.LibLeadAxis

noncomputable section

open scoped BigOperators

namespace Cert.KernelIdeal.Tile

open Cert.KernelIdeal Cert.KernelIdeal.Gen Idealize.ShloMosaic Idealize.ShloMosaic.ValueIdx Cert.LeadAxis

/-! ## The body's vector terms -/

/-- Clip `n`'s slab of the block: loaded at offsets `[n, 0, 0, 0, 0]` and cast to `[512, 8, 56]`. -/
def slab (x0 : Vec Ideal S8x1x512x8x56 .f32) (n : ℕ)
    (inb : ∀ a, (![n, 0, 0, 0, 0] : Fin 5 → Nat) a + S1x1x512x8x56.size a ≤ S8x1x512x8x56.size a) : FVec Ideal S512x8x56 .f32 :=
  shapeCast S512x8x56 (View.ld x0 (Rect.unit (s := S8x1x512x8x56) ![n, 0, 0, 0, 0] S1x1x512x8x56.size inb) : Vec Ideal S1x1x512x8x56 .f32)
    shapeCasts_S1x1x512x8x56_S512x8x56

/-- A `[512, 8, 56]` value divided, pixel by pixel, by its floored length along the channel axis. -/
def unitize (v : FVec Ideal S512x8x56 .f32) : FVec Ideal S512x8x56 .f32 :=
  divf v (broadcastTo S512x8x56 (shapeCast S1x8x56 (maximumf (sqrt (multiReduction .add [0] S8x56 (mulf v v) 0x00000000#32
    reduces_S512x8x56_S8x56 (.inl rfl) rfl)) (broadcast S8x56 (Scalar.ofBits (F := Ideal) .f32 0x322BCC77#32))) shapeCasts_S8x56_S1x8x56)
    broadcasts_S1x8x56_S512x8x56)

/-- The squares of a `[512, 8, 56]` value summed over the channel axis. -/
def sumsq (w : FVec Ideal S512x8x56 .f32) : FVec Ideal S8x56 .f32 :=
  multiReduction .add [0] S8x56 (mulf w w) 0x00000000#32 reduces_S512x8x56_S8x56 (.inl rfl) rfl

/-- Clip `n`'s direction at every pixel of the tile. -/
def clipDir (x0 : Vec Ideal S8x1x512x8x56 .f32) (n : ℕ)
    (inb : ∀ a, (![n, 0, 0, 0, 0] : Fin 5 → Nat) a + S1x1x512x8x56.size a ≤ S8x1x512x8x56.size a) : FVec Ideal S512x8x56 .f32 :=
  unitize (slab x0 n inb)

/-- The running sum of the eight directions, from zero. -/
def total (x0 : Vec Ideal S8x1x512x8x56 .f32) : FVec Ideal S512x8x56 .f32 :=
  (addf (addf (addf (addf (addf (addf (addf (addf (broadcast S512x8x56 (Scalar.ofBits (F := Ideal) .f32 0x00000000#32)) (clipDir x0 0 inb_S8x1x512x8x56_S1x1x512x8x56_0_0_0_0_0)) (clipDir x0 1 inb_S8x1x512x8x56_S1x1x512x8x56_1_0_0_0_0)) (clipDir x0 2 inb_S8x1x512x8x56_S1x1x512x8x56_2_0_0_0_0)) (clipDir x0 3 inb_S8x1x512x8x56_S1x1x512x8x56_3_0_0_0_0)) (clipDir x0 4 inb_S8x1x512x8x56_S1x1x512x8x56_4_0_0_0_0)) (clipDir x0 5 inb_S8x1x512x8x56_S1x1x512x8x56_5_0_0_0_0)) (clipDir x0 6 inb_S8x1x512x8x56_S1x1x512x8x56_6_0_0_0_0)) (clipDir x0 7 inb_S8x1x512x8x56_S1x1x512x8x56_7_0_0_0_0))

/-- The running sum, from zero, of the eight directions' squared lengths. -/
def diag (x0 : Vec Ideal S8x1x512x8x56 .f32) : FVec Ideal S8x56 .f32 :=
  (addf (addf (addf (addf (addf (addf (addf (addf (broadcast S8x56 (Scalar.ofBits (F := Ideal) .f32 0x00000000#32)) (sumsq (clipDir x0 0 inb_S8x1x512x8x56_S1x1x512x8x56_0_0_0_0_0))) (sumsq (clipDir x0 1 inb_S8x1x512x8x56_S1x1x512x8x56_1_0_0_0_0))) (sumsq (clipDir x0 2 inb_S8x1x512x8x56_S1x1x512x8x56_2_0_0_0_0))) (sumsq (clipDir x0 3 inb_S8x1x512x8x56_S1x1x512x8x56_3_0_0_0_0))) (sumsq (clipDir x0 4 inb_S8x1x512x8x56_S1x1x512x8x56_4_0_0_0_0))) (sumsq (clipDir x0 5 inb_S8x1x512x8x56_S1x1x512x8x56_5_0_0_0_0))) (sumsq (clipDir x0 6 inb_S8x1x512x8x56_S1x1x512x8x56_6_0_0_0_0))) (sumsq (clipDir x0 7 inb_S8x1x512x8x56_S1x1x512x8x56_7_0_0_0_0)))

/-- What the body stores: `(‖total‖² − diag) / 56`, as a `[1, 8, 56]` block. -/
def tile (x0 : Vec Ideal S8x1x512x8x56 .f32) : FVec Ideal S1x8x56 .f32 :=
  shapeCast S1x8x56 (divf (subf (sumsq (total x0)) (diag x0)) (broadcast S8x56 (Scalar.ofBits (F := Ideal) .f32 0x42600000#32)))
    shapeCasts_S8x56_S1x8x56

theorem zero3 : (![0, 0, 0] : Fin 3 → Nat) = fun _ => 0 := funext fun a => by fin_cases a <;> rfl

/-- The output buffer after the body holds `tile` of the input block: its one store covers the buffer, and the store's
    payload, over the loads of the eight slabs, unfolds to these terms. -/
theorem out_eq (x0 : Vec Ideal S8x1x512x8x56 .f32) : out0_1 (F := Ideal) x0 = tile x0 := by
  unfold out0_1
  rw [View.canon_unit_zero zero3]
  rfl

/-! ## Read at a pixel -/

/-- The family the block holds over pixel `(p, q)` of the tile. -/
def blockFibre (x0 : Vec Ideal S8x1x512x8x56 .f32) (p : Fin 8) (q : Fin 56) : Fin 8 → Fin 512 → EReal :=
  fun n c => x0 (ix5 n (0 : Fin 1) c p q)

theorem slab_apply (x0 : Vec Ideal S8x1x512x8x56 .f32) (n : ℕ) (hn : n < 8)
    (inb : ∀ a, (![n, 0, 0, 0, 0] : Fin 5 → Nat) a + S1x1x512x8x56.size a ≤ S8x1x512x8x56.size a)
    (c : Fin 512) (p : Fin 8) (q : Fin 56) :
    slab x0 n inb (ix3 c p q) = blockFibre x0 p q ⟨n, hn⟩ c :=
  ld_slab_apply x0 n hn inb shapeCasts_S1x1x512x8x56_S512x8x56 c p q

theorem sumsq_apply (w : FVec Ideal S512x8x56 .f32) (p : Fin 8) (q : Fin 56) :
    sumsq w (ix2 p q) = ∑ c : Fin 512, w (ix3 c p q) * w (ix3 c p q) :=
  multiReduction_add_lead_apply (mulf w w) 0x00000000#32 reduces_S512x8x56_S8x56 (.inl rfl) rfl p q

theorem unitize_apply (v : FVec Ideal S512x8x56 .f32) (c : Fin 512) (p : Fin 8) (q : Fin 56) :
    unitize v (ix3 c p q)
      = Ideal.div (v (ix3 c p q)) (max (Ideal.sqrt (∑ c' : Fin 512, v (ix3 c' p q) * v (ix3 c' p q))) Cosine.tiny) := by
  unfold unitize
  rw [divf_apply]
  refine congrArg (Ideal.div (v (ix3 c p q))) ?_
  refine (broadcastTo_1bc_abc_apply _ broadcasts_S1x8x56_S512x8x56 c p q).trans ?_
  refine (shapeCast_ab_1ab_apply _ shapeCasts_S8x56_S1x8x56 (0 : Fin 1) p q).trans ?_
  refine congrArg (fun s => max (Ideal.sqrt s) Cosine.tiny) ?_
  exact multiReduction_add_lead_apply (mulf v v) 0x00000000#32 reduces_S512x8x56_S8x56 (.inl rfl) rfl p q

/-- Clip `n`'s direction at channel `c`, pixel `(p, q)` of the tile, is `Cosine.dir` of the family over that pixel. -/
theorem clipDir_apply (x0 : Vec Ideal S8x1x512x8x56 .f32) (n : ℕ) (hn : n < 8)
    (inb : ∀ a, (![n, 0, 0, 0, 0] : Fin 5 → Nat) a + S1x1x512x8x56.size a ≤ S8x1x512x8x56.size a)
    (c : Fin 512) (p : Fin 8) (q : Fin 56) :
    clipDir x0 n inb (ix3 c p q) = Cosine.dir (blockFibre x0 p q) ⟨n, hn⟩ c := by
  unfold clipDir
  rw [unitize_apply]
  simp only [slab_apply x0 n hn inb]
  rfl

/-- THE STORED BLOCK AT A PIXEL: the score of the family the input block holds over it. -/
theorem tile_apply (x0 : Vec Ideal S8x1x512x8x56 .f32) (z : Fin 1) (p : Fin 8) (q : Fin 56) :
    tile x0 (ix3 z p q) = Cosine.score (blockFibre x0 p q) := by
  have e0 : ∀ c, clipDir x0 0 inb_S8x1x512x8x56_S1x1x512x8x56_0_0_0_0_0 (ix3 c p q) = Cosine.dir (blockFibre x0 p q) 0 c := fun c => clipDir_apply x0 0 (by decide) _ c p q
  have e1 : ∀ c, clipDir x0 1 inb_S8x1x512x8x56_S1x1x512x8x56_1_0_0_0_0 (ix3 c p q) = Cosine.dir (blockFibre x0 p q) 1 c := fun c => clipDir_apply x0 1 (by decide) _ c p q
  have e2 : ∀ c, clipDir x0 2 inb_S8x1x512x8x56_S1x1x512x8x56_2_0_0_0_0 (ix3 c p q) = Cosine.dir (blockFibre x0 p q) 2 c := fun c => clipDir_apply x0 2 (by decide) _ c p q
  have e3 : ∀ c, clipDir x0 3 inb_S8x1x512x8x56_S1x1x512x8x56_3_0_0_0_0 (ix3 c p q) = Cosine.dir (blockFibre x0 p q) 3 c := fun c => clipDir_apply x0 3 (by decide) _ c p q
  have e4 : ∀ c, clipDir x0 4 inb_S8x1x512x8x56_S1x1x512x8x56_4_0_0_0_0 (ix3 c p q) = Cosine.dir (blockFibre x0 p q) 4 c := fun c => clipDir_apply x0 4 (by decide) _ c p q
  have e5 : ∀ c, clipDir x0 5 inb_S8x1x512x8x56_S1x1x512x8x56_5_0_0_0_0 (ix3 c p q) = Cosine.dir (blockFibre x0 p q) 5 c := fun c => clipDir_apply x0 5 (by decide) _ c p q
  have e6 : ∀ c, clipDir x0 6 inb_S8x1x512x8x56_S1x1x512x8x56_6_0_0_0_0 (ix3 c p q) = Cosine.dir (blockFibre x0 p q) 6 c := fun c => clipDir_apply x0 6 (by decide) _ c p q
  have e7 : ∀ c, clipDir x0 7 inb_S8x1x512x8x56_S1x1x512x8x56_7_0_0_0_0 (ix3 c p q) = Cosine.dir (blockFibre x0 p q) 7 c := fun c => clipDir_apply x0 7 (by decide) _ c p q
  have z0 : Scalar.ofBits (F := Ideal) .f32 0x00000000#32 = (0 : EReal) := Ideal.ofBits_zero_f32
  unfold tile
  refine (shapeCast_ab_1ab_apply _ shapeCasts_S8x56_S1x8x56 z p q).trans ?_
  rw [divf_apply, subf_apply, sumsq_apply]
  unfold total diag
  simp only [addf_apply, broadcast_apply, sumsq_apply, e0, e1, e2, e3, e4, e5, e6, e7, z0]
  unfold Cosine.score
  rw [← Cosine.sum_eight (fun n => ∑ c : Fin 512, Cosine.dir (blockFibre x0 p q) n c * Cosine.dir (blockFibre x0 p q) n c)]
  refine congrArg (fun s => Ideal.div (s - _) Cosine.pairs) ?_
  refine Finset.sum_congr rfl fun c _ => ?_
  rw [← Cosine.sum_eight (fun n => Cosine.dir (blockFibre x0 p q) n c)]

end Cert.KernelIdeal.Tile

end
-- ==== Proof.Whole.lean ====
/-
  From the blocks to the whole result array.

  Grid point `t = (b, k)` (4 batch entries × 7 row tiles) stages block `(0, b, 0, k, 0)` of the input — all eight clips, batch
  entry `b`, all channels, rows `8k … 8k+7`, all columns — and writes back block `(b, k, 0)` of the result. So the family
  the input block holds over pixel `(p, q)` of the tile is the family the input ARRAY holds over pixel `(8k + p, q)` of batch
  entry `b`, and what point `t` writes back is block `t` of `Cosine.G` of the input array (`flushed_eq`). The 28 result
  blocks tile the `[4, 56, 56]` array (row `r` lies in tile `r / 8`: `cover`), hence after the run the result array is
  `Cosine.G` of the input (`final`, `run`).
-/
import proofs.«178114_j15642270892813_2_alg».proof.Proof.Gen.KernelIdeal.Value
import proofs.«178114_j15642270892813_2_alg».proof.Proof.Tile

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the 28 grid points: the input block moves with the result block along the batch axis
    and the row-tile axis and sits at block 0 on the clip, channel and column axes; the result block's column index is 0. -/
theorem idx_facts : ∀ t : Fin cfg0.N,
    win0_0.index t (0 : Fin 5) = 0 ∧ win0_0.index t (1 : Fin 5) = win0_1.index t (0 : Fin 3)
    ∧ win0_0.index t (2 : Fin 5) = 0 ∧ win0_0.index t (3 : Fin 5) = win0_1.index t (1 : Fin 3)
    ∧ win0_0.index t (4 : Fin 5) = 0 ∧ win0_1.index t (2 : Fin 3) = 0
    ∧ win0_1.index t (0 : Fin 3) ≤ 3 ∧ win0_1.index t (1 : Fin 3) ≤ 6 :=
  (by decide +kernel : ∀ t : Fin grid0.N, _)

/-- Every (batch entry, row tile) pair is some grid point's result block. -/
theorem idx_onto : ∀ (q0 : Fin 4) (q1 : Fin 7), ∃ t : Fin cfg0.N, win0_1.index t = ![q0.val, q1.val, 0] :=
  (by decide +kernel : ∀ (q0 : Fin 4) (q1 : Fin 7), ∃ t : Fin grid0.N, win0_1.index t = ![q0.val, q1.val, 0])

/-- WHAT POINT `t` WRITES BACK is block `t` of `Cosine.G` of the input array. -/
theorem flushed_eq (c : Dev nD) (t : Fin cfg0.N) :
    (dats m 0 c).flushed 1 t = ((cfg0.win 1).blk t).view.read (Elt Ideal) (Cosine.G (V m c main_arg0)) := by
  rw [Value.flushed1, Tile.out_eq (iblk m c 0 t)]
  obtain ⟨e0, e1, e2, e3, e4, e5, e6, e7⟩ := idx_facts t
  funext j
  obtain ⟨z, p, q, rfl⟩ : ∃ (z : Fin 1) (p : Fin 8) (q : Fin 56), j = ix3 z p q := ⟨j 0, j 1, j 2, eq_ix3 j⟩
  show Tile.tile (iblk m c 0 t) (ix3 z p q) = Cosine.G (V m c main_arg0) (((cfg0.win 1).blk t).view.emb (ix3 z p q))
  rw [Tile.tile_apply]
  unfold Cosine.G
  refine congrArg Cosine.score ?_
  funext n c'
  show V m c main_arg0 (((cfg0.win 0).blk t).view.emb (ix5 n (0 : Fin 1) c' p q))
    = V m c main_arg0 (ix5 n (((cfg0.win 1).blk t).view.emb (ix3 z p q) 0) c' (((cfg0.win 1).blk t).view.emb (ix3 z p q) 1)
        (((cfg0.win 1).blk t).view.emb (ix3 z p q) 2))
  refine congrArg (V m c main_arg0) ?_
  have hz : z.val = 0 := by omega
  funext a; apply Fin.ext
  match a with
  | ⟨0, _⟩ => show win0_0.index t (0 : Fin 5) * 8 + 1 * n.val = n.val; omega
  | ⟨1, _⟩ => show win0_0.index t (1 : Fin 5) * 1 + 1 * 0 = win0_1.index t (0 : Fin 3) * 1 + 1 * z.val; omega
  | ⟨2, _⟩ => show win0_0.index t (2 : Fin 5) * 512 + 1 * c'.val = c'.val; omega
  | ⟨3, _⟩ => show win0_0.index t (3 : Fin 5) * 8 + 1 * p.val = win0_1.index t (1 : Fin 3) * 8 + 1 * p.val; omega
  | ⟨4, _⟩ => show win0_0.index t (4 : Fin 5) * 56 + 1 * q.val = win0_1.index t (2 : Fin 3) * 56 + 1 * q.val; omega

/-- An index of the result array is in point `t`'s block iff each coordinate is in the block's range on its axis. -/
theorem mem_blk (t : Fin cfg0.N) (i : S4x56x56.Idx) :
    i ∈ ((cfg0.win 1).blk t).view.set ↔ ∀ a : Fin 3, win0_1.index t a * S1x8x56.size a ≤ (i a).val ∧ (i a).val < win0_1.index t a * S1x8x56.size a + S1x8x56.size a := by
  show i ∈ ((View.whole main_v0).slice (win0_1.rect t)).set ↔ _
  rw [View.set_slice_whole, Rect.mem_set_unit]
  exact Iff.rfl

/-- The result blocks tile the array: row `r` of batch entry `b` lies in the block of the point `(b, r / 8)`. -/
theorem cover (i : S4x56x56.Idx) : ∃ t : Fin cfg0.N, (cfg0.win 1).flush t = true ∧ i ∈ ((cfg0.win 1).blk t).view.set := by
  have hi0 : (i 0).val < 4 := (i 0).isLt
  have hi1 : (i 1).val < 56 := (i 1).isLt
  have hi2 : (i 2).val < 56 := (i 2).isLt
  obtain ⟨t, ht⟩ := idx_onto ⟨(i 0).val, hi0⟩ ⟨(i 1).val / 8, by omega⟩
  have q0 : win0_1.index t (0 : Fin 3) = (i 0).val := congrFun ht 0
  have q1 : win0_1.index t (1 : Fin 3) = (i 1).val / 8 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 56 ≤ (i 2).val ∧ (i 2).val < win0_1.index t (2 : Fin 3) * 56 + 56; omega

/-- THE RESULT ARRAY after the run is `Cosine.G` of the input array as launched. -/
theorem final (c : Dev nD) : (dats m 0 c).arrAt 1 cfg0.N = Cosine.G (m ((c : Thread nD τ).loc main_arg0)) :=
  (dats m 0 c).arrAt_eq_of_cover 1 (Cosine.G (V m c main_arg0)) (fun t _ => flushed_eq m c t) cover

/-- The kernel's run: every weakly fair execution ends with the result at `Cosine.G` of the argument, the argument unchanged. -/
theorem run : θ_run defs (onTc (τ := τ) (main (F := Ideal))) ⟨m, fun _ => 0, ρ⟩ fun r => ∀ c : Dev nD,
      r.2.mem ((c : Thread nD τ).loc main_v0) = Cosine.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.Reference.lean ====
/-
  The reference program computes `Cosine.G`.

  Its host operations, read one at a time at an index (the generated stage lemmas): the squares summed over the channel
  axis, the square root, the floor `max · tiny`, the quotient `x / length` — the direction `Cosine.dir` of the family over the
  pixel (`dir_apply`) —, then the sum of the directions over the clips, its square summed over the channels, the directions'
  squares summed over channels and then clips, the difference and the quotient by 56. Each host sum is its initial value
  `0` plus the sum over the reduced coordinate; the composed index maps of the stages are the coordinate tuples below.
-/
import proofs.«178114_j15642270892813_2_alg».proof.Proof.Gen.ReferenceIdeal.Read
import proofs.«178114_j15642270892813_2_alg».proof.Proof.Cosine

noncomputable section

open scoped BigOperators

namespace Cert.ReferenceIdeal.Spec

open Cert.ReferenceIdeal Cert.ReferenceIdeal.Read Idealize.ShloMosaic Idealize.ShloMosaic.ValueIdx

/-! ## The stages' index maps, composed -/

/-- Clip `n`, channel `c` over output pixel `(b, h, w)`, reached through the channel sum and then the clip sum. -/
theorem idx_pair (b : Fin 4) (h w : Fin 56) (c : Fin 512) (n : Fin 8) :
    idx_main_v8 (idx_main_v10 (ix3 b h w) c) n = ix5 n b c h w := by
  funext a; apply Fin.ext
  match a with
  | ⟨0, _⟩ => rfl
  | ⟨1, _⟩ => rfl
  | ⟨2, _⟩ => rfl
  | ⟨3, _⟩ => rfl
  | ⟨4, _⟩ => rfl

/-- The same entry reached through the clip sum and then the channel sum (the diagonal terms). -/
theorem idx_diag (b : Fin 4) (h w : Fin 56) (n : Fin 8) (c : Fin 512) :
    idx_main_v12 (idx_main_v13 (ix3 b h w) n) c = ix5 n b c h w := by
  funext a; apply Fin.ext
  match a with
  | ⟨0, _⟩ => rfl
  | ⟨1, _⟩ => rfl
  | ⟨2, _⟩ => rfl
  | ⟨3, _⟩ => rfl
  | ⟨4, _⟩ => rfl

/-- The length that divides entry `(n, b, c, h, w)` sums the squares of the entries `(n, b, c', h, w)`. -/
theorem idx_len (n : Fin 8) (b : Fin 4) (c : Fin 512) (h w : Fin 56) (c' : Fin 512) :
    idx_main_v1 (idx_main_v2 (idx_main_v6 (ix5 n b c h w))) c' = ix5 n b c' h w := by
  funext a; apply Fin.ext
  match a with
  | ⟨0, _⟩ => rfl
  | ⟨1, _⟩ => rfl
  | ⟨2, _⟩ => rfl
  | ⟨3, _⟩ => rfl
  | ⟨4, _⟩ => rfl

/-! ## The direction, then the score -/

/-- The normalised input at `(n, b, c, h, w)` is the direction of clip `n`, channel `c`, of the family over the pixel. -/
theorem dir_apply (X : (⟨S8x4x512x56x56, .f32⟩ : BufTy).Contents (Elt Ideal)) (n : Fin 8) (b : Fin 4) (c : Fin 512) (h w : Fin 56) :
    val_main_v7 (F := Ideal) X (ix5 n b c h w) = Cosine.dir (Cosine.fibre X b h w) n c := by
  rw [val_main_v7_apply, val_main_v6_apply, val_main_v5_apply, val_main_v3_apply, val_main_v2_apply, val_main_v1_apply,
    val_main_v4_apply, val_main_cst_0_apply, val_main_cst_apply]
  simp only [idx_len, val_main_v0_apply, Ideal.mulf_def, Ideal.hostDivf_def, Ideal.hostUnary_sqrt_def, Ideal.maximumf_def,
    Ideal.ofBits_def, Ideal.ofBits_zero_f32, zero_add]
  rfl

/-- The reference's result is `Cosine.G` of its argument. -/
theorem result_eq (X : (⟨S8x4x512x56x56, .f32⟩ : BufTy).Contents (Elt Ideal)) :
    val_main_v16 (F := Ideal) X = Cosine.G X := by
  funext i
  obtain ⟨b, h, w, rfl⟩ : ∃ (b : Fin 4) (h w : Fin 56), i = ix3 b h w := ⟨i 0, i 1, i 2, eq_ix3 i⟩
  rw [val_main_v16_apply, val_main_v14_apply, val_main_v10_apply, val_main_v13_apply, val_main_v15_apply,
    val_main_cst_5_apply, val_main_cst_2_apply, val_main_cst_4_apply]
  simp only [val_main_v9_apply, val_main_v8_apply, val_main_v12_apply, val_main_v11_apply, idx_pair, idx_diag, dir_apply,
    val_main_cst_1_apply, val_main_cst_3_apply, Ideal.mulf_def, Ideal.subf_def, Ideal.hostDivf_def, Ideal.ofBits_def,
    Ideal.ofBits_zero_f32, zero_add]
  rfl

end Cert.ReferenceIdeal.Spec

end
-- ==== Proof.lean ====
/-
  Mean pairwise cosine similarity of eight clips of feature maps: the kernel against its reference, over the extended reals.

  The input is `x : [8, 4, 512, 56, 56]` (clip, batch entry, channel, row, column). At every pixel `(h, w)` of every batch
  entry `b` both programs form, for each clip `n`, the direction `d n = x[n, b, :, h, w] / max(‖x[n, b, :, h, w]‖, tiny)` and
  return `(‖∑ n, d n‖² − ∑ n, ‖d n‖²) / 56`: the sum of `⟨d i, d j⟩` over the 56 ordered pairs `i ≠ j`, divided by their number
  (`Cosine.score`, Proof/Cosine.lean). The reference does it with whole-array host operations (Proof/Reference.lean); the
  kernel tiles the result into `4 × 7` blocks of `8 × 56` pixels, holds all clips and channels of a tile at once, and runs
  through the clips keeping two running sums (Proof/Tile.lean, Proof/Whole.lean). The two results are the same function
  `Cosine.G` of the input, index by index: the operations on an entry are literally the same (product, sum over channels,
  square root, maximum with the same floor, quotient, sums, difference, quotient by the same 56), and the only difference —
  a running sum from zero against one sum over the eight clips — is none in a commutative monoid. No step uses that the
  entries are finite.

  The three frames: the kernel's at both readings are its generated frame certificates; the reference's is its generated
  run with the result dropped. The idealized kernel is the kernel's own text read over the extended reals, so there is
  nothing to preserve. The algebraic claim is the two runs side by side, both results at `Cosine.G` of arguments that agree.
-/
import proofs.«178114_j15642270892813_2_alg».proof.Defs
import proofs.«178114_j15642270892813_2_alg».proof.Proof.Gen.Kernel
import proofs.«178114_j15642270892813_2_alg».proof.Proof.Gen.Kernel.Frame
import proofs.«178114_j15642270892813_2_alg».proof.Proof.Gen.KernelIdeal
import proofs.«178114_j15642270892813_2_alg».proof.Proof.Gen.KernelIdeal.Frame
import proofs.«178114_j15642270892813_2_alg».proof.Proof.Gen.ReferenceIdeal
import proofs.«178114_j15642270892813_2_alg».proof.Proof.Gen.ReferenceIdeal.Run
import proofs.«178114_j15642270892813_2_alg».proof.Proof.Gen.Pre_finite_inputs
import proofs.«178114_j15642270892813_2_alg».proof.Proof.Whole
import proofs.«178114_j15642270892813_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at `Cosine.G` of its argument (Proof/Whole.lean) and the
    reference's at its operations' term of its argument, which is `Cosine.G` of it (Proof/Reference.lean); the arguments agree. -/
theorem algebraic : Cert.algebraic_KernelIdeal_ReferenceIdeal := by
  intro m ρ m' ρ' _ hagree
  refine ⟨fun c => Cosine.G (m ((c : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Spec.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
